-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S100000x64 .f32) (main_arg2 : IVec S2x1000000 32) (main_arg3 : IVec S2x1000000 32) (main_arg4 : FVec F S192x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1000000 : Shape := ⟨2, ![2, 1000000]⟩
abbrev S192x64 : Shape := ⟨2, ![192, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S100000x1 : Shape := ⟨2, ![100000, 1]⟩
abbrev S5000x64 : Shape := ⟨2, ![5000, 64]⟩
abbrev S64x64 : Shape := ⟨2, ![64, 64]⟩
abbrev S1x64 : Shape := ⟨2, ![1, 64]⟩
abbrev S5000 : Shape := ⟨1, ![5000]⟩
abbrev S5000x1 : Shape := ⟨2, ![5000, 1]⟩

abbrev nBuf : Space → Nat
  | .hbm => 71
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1000000, .i32⟩
  | .hbm, ⟨3, _⟩ => ⟨S2x1000000, .i32⟩
  | .hbm, ⟨4, _⟩ => ⟨S192x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000, .i32⟩
  | .hbm, ⟨15, _⟩ => ⟨S1100000, .i32⟩
  | .hbm, ⟨16, _⟩ => ⟨S1100000, .i32⟩
  | .hbm, ⟨17, _⟩ => ⟨S_, .i32⟩
  | .hbm, ⟨18, _⟩ => ⟨S1100000, .i32⟩
  | .hbm, ⟨19, _⟩ => ⟨S1100000, .i1⟩
  | .hbm, ⟨20, _⟩ => ⟨S_, .i32⟩
  | .hbm, ⟨21, _⟩ => ⟨S1100000, .i32⟩
  | .hbm, ⟨22, _⟩ => ⟨S1100000, .i32⟩
  | .hbm, ⟨23, _⟩ => ⟨S1100000, .i32⟩
  | .hbm, ⟨24, _⟩ => ⟨S1100000x1, .i32⟩
  | .hbm, ⟨25, _⟩ => ⟨S1100000x64, .f32⟩
  | .hbm, ⟨26, _⟩ => ⟨S_, .f32⟩
  | .hbm, ⟨27, _⟩ => ⟨S100000x64, .f32⟩
  | .hbm, ⟨28, _⟩ => ⟨S1100000x1, .i32⟩
  | .hbm, ⟨29, _⟩ => ⟨S100000x64, .f32⟩
  | .hbm, ⟨30, _⟩ => ⟨S_, .f32⟩
  | .hbm, ⟨31, _⟩ => ⟨S1100000, .f32⟩
  | .hbm, ⟨32, _⟩ => ⟨S_, .f32⟩
  | .hbm, ⟨33, _⟩ => ⟨S100000, .f32⟩
  | .hbm, ⟨34, _⟩ => ⟨S1100000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000, .i32⟩
  | .hbm, ⟨43, _⟩ => ⟨S1100000, .i32⟩
  | .hbm, ⟨44, _⟩ => ⟨S1100000, .i32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S_, .f32⟩
  | .hbm, ⟨55, _⟩ => ⟨S100000x64, .f32⟩
  | .hbm, ⟨56, _⟩ => ⟨S1100000x1, .i32⟩
  | .hbm, ⟨57, _⟩ => ⟨S100000x64, .f32⟩
  | .hbm, ⟨58, _⟩ => ⟨S_, .f32⟩
  | .hbm, ⟨59, _⟩ => ⟨S1100000, .f32⟩
  | .hbm, ⟨60, _⟩ => ⟨S_, .f32⟩
  | .hbm, ⟨61, _⟩ => ⟨S100000, .f32⟩
  | .hbm, ⟨62, _⟩ => ⟨S1100000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S192x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  bitsLt_bf16_f32 : FTy.bits .bf16 < FTy.bits .f32
  slices_S192x64_o64_0_S64x64 : S192x64.Slices ![64, 0] S64x64
  slices_S192x64_o128_0_S64x64 : S192x64.Slices ![128, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S100000_S1100000x1_S1100000_n_0_0_1_wf : ScatterDims.WF S100000 S1100000x1 S1100000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v29) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S192x64 : Shape := ⟨2, ![192, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S100000x1 : Shape := ⟨2, ![100000, 1]⟩
abbrev S100000x192 : Shape := ⟨2, ![100000, 192]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1000000, .i32⟩
  | .hbm, ⟨3, _⟩ => ⟨S2x1000000, .i32⟩
  | .hbm, ⟨4, _⟩ => ⟨S192x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .i32⟩
  | .hbm, ⟨14, _⟩ => ⟨S1100000, .i32⟩
  | .hbm, ⟨15, _⟩ => ⟨S1100000, .i1⟩
  | .hbm, ⟨16, _⟩ => ⟨S_, .i32⟩
  | .hbm, ⟨17, _⟩ => ⟨S1100000, .i32⟩
  | .hbm, ⟨18, _⟩ => ⟨S1100000, .i32⟩
  | .hbm, ⟨19, _⟩ => ⟨S1100000, .i32⟩
  | .hbm, ⟨20, _⟩ => ⟨S1100000x1, .i32⟩
  | .hbm, ⟨21, _⟩ => ⟨S1100000x64, .f32⟩
  | .hbm, ⟨22, _⟩ => ⟨S_, .f32⟩
  | .hbm, ⟨23, _⟩ => ⟨S100000x64, .f32⟩
  | .hbm, ⟨24, _⟩ => ⟨S1100000x1, .i32⟩
  | .hbm, ⟨25, _⟩ => ⟨S100000x64, .f32⟩
  | .hbm, ⟨26, _⟩ => ⟨S_, .f32⟩
  | .hbm, ⟨27, _⟩ => ⟨S1100000, .f32⟩
  | .hbm, ⟨28, _⟩ => ⟨S_, .f32⟩
  | .hbm, ⟨29, _⟩ => ⟨S100000, .f32⟩
  | .hbm, ⟨30, _⟩ => ⟨S1100000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x1000000, .i32⟩
  | .hbm, ⟨39, _⟩ => ⟨S1000000, .i32⟩
  | .hbm, ⟨40, _⟩ => ⟨S1x1000000, .i32⟩
  | .hbm, ⟨41, _⟩ => ⟨S1000000, .i32⟩
  | .hbm, ⟨42, _⟩ => ⟨S100000, .i32⟩
  | .hbm, ⟨43, _⟩ => ⟨S1100000, .i32⟩
  | .hbm, ⟨44, _⟩ => ⟨S1100000, .i32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S_, .f32⟩
  | .hbm, ⟨55, _⟩ => ⟨S100000x64, .f32⟩
  | .hbm, ⟨56, _⟩ => ⟨S1100000x1, .i32⟩
  | .hbm, ⟨57, _⟩ => ⟨S100000x64, .f32⟩
  | .hbm, ⟨58, _⟩ => ⟨S_, .f32⟩
  | .hbm, ⟨59, _⟩ => ⟨S1100000, .f32⟩
  | .hbm, ⟨60, _⟩ => ⟨S_, .f32⟩
  | .hbm, ⟨61, _⟩ => ⟨S100000, .f32⟩
  | .hbm, ⟨62, _⟩ => ⟨S1100000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x192, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S100000x64, .f32⟩
  | .hbm, ⟨84, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S100000_S1100000x1_S1100000_n_0_0_1_wf : ScatterDims.WF S100000 S1100000x1 S1100000 [] [0] [0] 1
  dot_S100000x192_S192x64_S100000x64_1_0_0_1_n_n_wf : DotDims.WF S100000x192 S192x64 S100000x64 [1] [0] [0] [1] [] []

variable [Facts₀]

def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Spec.lean ====
/-
  The dense stage of the signed convolution, as mathematics, for any number of rows.

  Three [n, 64] matrices A, B, C (the two neighbourhood means and the node features), a [192, 64] weight W read as
  three stacked [64, 64] blocks, and a bias b of length 64 give the linear layer

      y[r, e] = Σ_k A[r, k]·W[k, e] + Σ_k B[r, k]·W[64 + k, e] + Σ_k C[r, k]·W[128 + k, e] + b[e],

  and the result is each row of y divided by the larger of its Euclidean length and a fixed small constant:

      out[r, e] = y[r, e] / max(√(Σ_e' y[r, e']²), ε).

  Every row of the result depends on row r of A, B and C only, so the same definition describes one block of rows
  and the whole array.  The one law needed to compare the two programs is that a sum over 192 consecutive indices is
  the sum of its three consecutive runs of 64; it holds in every commutative monoid, so on the extended reals no
  finiteness is needed.
-/
import Idealize.ShloMosaic.Lib.ValueIdx
import Idealize.ShloMosaic.PureOps.Ideal

noncomputable section

open scoped BigOperators

namespace Cert.SignedConv

open Idealize.ShloMosaic Idealize.ShloMosaic.ValueIdx

/-- Row `o + k` of the 192-row weight: row `k` of the block of 64 rows that starts at row `o`. -/
abbrev wrow (o : ℕ) (ho : o + 64 ≤ 192) (k : Fin 64) : Fin 192 := ⟨o + k.val, by have := k.isLt; omega⟩

/-- The linear layer at row `r`, column `e`: the three blocks' products summed in the order first, second, third,
    then the bias. -/
def lin {n : ℕ} (A B C : FVec Ideal ⟨2, ![n, 64]⟩ .f32) (W : FVec Ideal ⟨2, ![192, 64]⟩ .f32)
    (b : FVec Ideal ⟨1, ![64]⟩ .f32) (r : Fin n) (e : Fin 64) : EReal :=
  (∑ k : Fin 64, A (ix2 r k) * W (ix2 (wrow 0 (by decide) k) e))
    + (∑ k : Fin 64, B (ix2 r k) * W (ix2 (wrow 64 (by decide) k) e))
    + (∑ k : Fin 64, C (ix2 r k) * W (ix2 (wrow 128 (by decide) k) e))
    + b (ix1 e)

/-- The constant the row length is compared with (the single-precision number nearest 10⁻¹²; both programs carry
    the same word, so its value is never needed). -/
def eps : EReal := Ideal.ofBits .f32 0x2B8CBCCC#32

/-- The sum of the squares of row `r` of the linear layer. -/
def sumSq {n : ℕ} (A B C : FVec Ideal ⟨2, ![n, 64]⟩ .f32) (W : FVec Ideal ⟨2, ![192, 64]⟩ .f32)
    (b : FVec Ideal ⟨1, ![64]⟩ .f32) (r : Fin n) : EReal :=
  ∑ e : Fin 64, lin A B C W b r e * lin A B C W b r e

/-- The normalized linear layer: each entry over the larger of its row's length and `eps`. -/
def normed {n : ℕ} (A B C : FVec Ideal ⟨2, ![n, 64]⟩ .f32) (W : FVec Ideal ⟨2, ![192, 64]⟩ .f32)
    (b : FVec Ideal ⟨1, ![64]⟩ .f32) : FVec Ideal ⟨2, ![n, 64]⟩ .f32 := fun j =>
  Ideal.div (lin A B C W b (j 0) (j 1)) (max (Ideal.sqrt (sumSq A B C W b (j 0))) eps)

theorem normed_apply {n : ℕ} (A B C : FVec Ideal ⟨2, ![n, 64]⟩ .f32) (W : FVec Ideal ⟨2, ![192, 64]⟩ .f32)
    (b : FVec Ideal ⟨1, ![64]⟩ .f32) (r : Fin n) (e : Fin 64) :
    normed A B C W b (ix2 r e) = Ideal.div (lin A B C W b r e) (max (Ideal.sqrt (sumSq A B C W b r)) eps) := rfl

/-- A row of the result depends on the same row of A, B and C only: if row `p` of three matrices is row `r` of three
    others, entry by entry, and the weight and the bias are the same, then row `p` of the one normalized layer is row
    `r` of the other. -/
theorem normed_rows {n n' : ℕ} (A B C : FVec Ideal ⟨2, ![n, 64]⟩ .f32) (A' B' C' : FVec Ideal ⟨2, ![n', 64]⟩ .f32)
    (W W' : FVec Ideal ⟨2, ![192, 64]⟩ .f32) (b b' : FVec Ideal ⟨1, ![64]⟩ .f32) (p : Fin n) (r : Fin n')
    (hA : ∀ k : Fin 64, A (ix2 p k) = A' (ix2 r k)) (hB : ∀ k : Fin 64, B (ix2 p k) = B' (ix2 r k))
    (hC : ∀ k : Fin 64, C (ix2 p k) = C' (ix2 r k)) (hW : W = W') (hb : b = b') (e : Fin 64) :
    normed A B C W b (ix2 p e) = normed A' B' C' W' b' (ix2 r e) := by
  subst hW hb
  have hl : ∀ e : Fin 64, lin A B C W b p e = lin A' B' C' W b r e := fun e => by
    unfold lin
    simp only [hA, hB, hC]
  rw [normed_apply, normed_apply]
  unfold sumSq
  simp only [hl]

/-- A sum over 192 consecutive indices is the sum of its three consecutive runs of 64. -/
theorem sum_three_blocks {M : Type*} [AddCommMonoid M] (f : Fin 192 → M) :
    ∑ k : Fin 192, f k
      = ∑ k : Fin 64, f (wrow 0 (by decide) k) + ∑ k : Fin 64, f (wrow 64 (by decide) k)
        + ∑ k : Fin 64, f (wrow 128 (by decide) k) := by
  obtain ⟨g, hg⟩ : ∃ g : ℕ → M, ∀ (j : ℕ) (h : j < 192), g j = f ⟨j, h⟩ :=
    ⟨fun j => if h : j < 192 then f ⟨j, h⟩ else 0, fun j h => dif_pos h⟩
  have e0 : ∑ k : Fin 192, f k = ∑ j ∈ Finset.range (64 + 64 + 64), g j := by
    rw [show (64 + 64 + 64 : ℕ) = 192 from rfl, ← Fin.sum_univ_eq_sum_range]
    exact Finset.sum_congr rfl fun k _ => (hg k.val k.isLt).symm
  have eb : ∀ (o : ℕ) (ho : o + 64 ≤ 192), ∑ k : Fin 64, f (wrow o ho k) = ∑ j ∈ Finset.range 64, g (o + j) := by
    intro o ho
    rw [← Fin.sum_univ_eq_sum_range (fun j => g (o + j))]
    exact Finset.sum_congr rfl fun k _ => (hg (o + k.val) (by have := k.isLt; omega)).symm
  rw [e0, eb 0 (by decide), eb 64 (by decide), eb 128 (by decide), Finset.sum_range_add, Finset.sum_range_add]
  simp only [Nat.zero_add]

end Cert.SignedConv

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Payload.lean ====
/-
  What the kernel's body computes from the blocks it loads, entry by entry.

  The body loads the whole [192, 64] weight W, one [5000, 64] block of each of the three row-tiled inputs A, B, C and
  the bias b.  It cuts W into its three [64, 64] blocks of rows, multiplies A, B, C by them (each product accumulated
  into zero; a change of float format is the identity on the extended reals), adds the three products and the bias
  row, and divides each entry by the larger of its row's Euclidean length and a constant.  Entry (p, e) of a product of
  a [5000, 64] matrix with rows o … o + 63 of W is Σ_k X[p, k]·W[o + k, e]; the bias row spread over the rows reads b[e]
  at every row; the row's sum of squares, kept as a column and spread back, reads the same sum at every column.  So
  the stored block is `normed A B C W b` over 5000 rows.
-/
import proofs.«130246_j24352464568464_2_alg».proof.Proof.Gen.KernelIdeal.Skeleton
import proofs.«130246_j24352464568464_2_alg».proof.Proof.Spec
import proofs.«130246_j24352464568464_2_alg».proof.Proof.LibKeepdims
import proofs.«130246_j24352464568464_2_alg».proof.Proof.LibPlainMatmul
import Idealize.ShloMosaic.Lib.ValueLayout
import Idealize.ShloMosaic.Lib.Pipeline.Value

noncomputable section

open scoped BigOperators

namespace Cert.SignedConv.Body

open Cert.KernelIdeal Cert.KernelIdeal.Gen Idealize.ShloMosaic Idealize.ShloMosaic.ValueIdx Cert.SignedConv

/-- Entry (p, e) of the product of a block X with the 64 rows of W that start at row `o`. -/
theorem prod_apply (X : Vec Ideal S5000x64 .f32) (W : Vec Ideal S192x64 .f32) (o : ℕ) (ho : o + 64 ≤ 192)
    (hs : S192x64.Slices ![o, 0] S64x64) (p : Fin 5000) (e : Fin 64) :
    matmul (F := Ideal) dot_S5000x64_S64x64_S5000x64_1_0_0_1_n_n none
        (truncf .bf16 (shapeCast S5000x64 X shapeCasts_S5000x64_S5000x64) bitsLt_bf16_f32)
        (truncf .bf16 (extractStridedSlice S64x64 ![o, 0] W hs) bitsLt_bf16_f32)
        (constant S5000x64 .f32 0x00000000#32) (ix2 p e)
      = ∑ k : Fin 64, X (ix2 p k) * W (ix2 (wrow o ho k) e) := by
  refine (matmul_plain_zero_apply _ rfl none _ _ p e).trans ?_
  refine Finset.sum_congr rfl fun k _ => ?_
  exact congrArg₂ (· * ·) (congrFun (shapeCast_self X shapeCasts_S5000x64_S5000x64) (ix2 p k))
    (slice2_axis0_eq o W hs k e)

/-- The bias, made a row and repeated down the block, reads `b[e]` at every row. -/
theorem bias_apply (b : Vec Ideal S64 .f32) (p : Fin 5000) (e : Fin 64) :
    broadcastTo S5000x64 (shapeCast S1x64 b shapeCasts_S64_S1x64) broadcasts_S1x64_S5000x64 (ix2 p e) = b (ix1 e) :=
  (broadcastTo_1b_ab_apply _ broadcasts_S1x64_S5000x64 p e).trans
    (shapeCast_a_1a_apply b shapeCasts_S64_S1x64 0 e)

/-- The body's linear layer on one block: the three products added in order, then the bias row. -/
def acc (W : Vec Ideal S192x64 .f32) (A B C : Vec Ideal S5000x64 .f32) (b : Vec Ideal S64 .f32) : FVec Ideal S5000x64 .f32 :=
  addf (addf (addf
      (matmul dot_S5000x64_S64x64_S5000x64_1_0_0_1_n_n none
        (truncf .bf16 (shapeCast S5000x64 A shapeCasts_S5000x64_S5000x64) bitsLt_bf16_f32)
        (truncf .bf16 (extractStridedSlice S64x64 ![0, 0] W slices_S192x64_o0_0_S64x64) bitsLt_bf16_f32)
        (constant S5000x64 .f32 0x00000000#32))
      (matmul dot_S5000x64_S64x64_S5000x64_1_0_0_1_n_n none
        (truncf .bf16 (shapeCast S5000x64 B shapeCasts_S5000x64_S5000x64) bitsLt_bf16_f32)
        (truncf .bf16 (extractStridedSlice S64x64 ![64, 0] W slices_S192x64_o64_0_S64x64) bitsLt_bf16_f32)
        (constant S5000x64 .f32 0x00000000#32)))
      (matmul dot_S5000x64_S64x64_S5000x64_1_0_0_1_n_n none
        (truncf .bf16 C bitsLt_bf16_f32)
        (truncf .bf16 (extractStridedSlice S64x64 ![128, 0] W slices_S192x64_o128_0_S64x64) bitsLt_bf16_f32)
        (constant S5000x64 .f32 0x00000000#32)))
    (broadcastTo S5000x64 (shapeCast S1x64 b shapeCasts_S64_S1x64) broadcasts_S1x64_S5000x64)

/-- Entry (p, e) of the block's linear layer is `lin` of the blocks. -/
theorem acc_apply (W : Vec Ideal S192x64 .f32) (A B C : Vec Ideal S5000x64 .f32) (b : Vec Ideal S64 .f32)
    (p : Fin 5000) (e : Fin 64) : acc W A B C b (ix2 p e) = lin A B C W b p e := by
  have hC : (shapeCast S5000x64 C shapeCasts_S5000x64_S5000x64 : S5000x64.Idx → EReal) = C :=
    shapeCast_self C shapeCasts_S5000x64_S5000x64
  have h3 := prod_apply C W 128 (by decide) slices_S192x64_o128_0_S64x64 p e
  rw [hC] at h3
  exact congrArg₂ (· + ·) (congrArg₂ (· + ·) (congrArg₂ (· + ·)
    (prod_apply A W 0 (by decide) slices_S192x64_o0_0_S64x64 p e)
    (prod_apply B W 64 (by decide) slices_S192x64_o64_0_S64x64 p e)) h3) (bias_apply b p e)

/-- The stored value is the linear layer over its rows' lengths, spelled with the body's own operations. -/
theorem pay_eq (W : Vec Ideal S192x64 .f32) (A B C : Vec Ideal S5000x64 .f32) (b : Vec Ideal S64 .f32) :
    k0_pay1 (F := Ideal) W A B C b
      = divf (acc W A B C b)
          (broadcastTo S5000x64
            (maximumf
              (sqrt (shapeCast S5000x1
                (multiReduction (F := Ideal) .add [1] S5000 (mulf (acc W A B C b) (acc W A B C b)) 0x00000000#32
                  reduces_S5000x64_S5000 (.inl rfl) rfl) shapeCasts_S5000_S5000x1))
              (broadcast S5000x1 (Scalar.ofBits (F := Ideal) .f32 0x2B8CBCCC#32)))
            broadcasts_S5000x1_S5000x64) := rfl

/-- THE BODY'S STORE: the block `normed A B C W b`. -/
theorem pay_is_normed (W : Vec Ideal S192x64 .f32) (A B C : Vec Ideal S5000x64 .f32) (b : Vec Ideal S64 .f32) :
    k0_pay1 (F := Ideal) W A B C b = normed A B C W b := by
  rw [pay_eq]
  funext j
  obtain ⟨p, e, rfl⟩ : ∃ (p : Fin 5000) (e : Fin 64), j = ix2 p e := ⟨j 0, j 1, eq_ix2 j⟩
  have hss : shapeCast S5000x1
        (multiReduction (F := Ideal) .add [1] S5000 (mulf (acc W A B C b) (acc W A B C b)) 0x00000000#32
          reduces_S5000x64_S5000 (.inl rfl) rfl) shapeCasts_S5000_S5000x1 (ix2 p (0 : Fin 1))
      = sumSq A B C W b p := by
    refine (LibKeepdims.shapeCast_a_a1_apply _ shapeCasts_S5000_S5000x1 p 0).trans ?_
    refine (LibKeepdims.multiReduction_add_lastAxis_apply _ _ reduces_S5000x64_S5000 (.inl rfl) rfl p).trans ?_
    exact Finset.sum_congr rfl fun f _ => congrArg₂ (· * ·) (acc_apply W A B C b p f) (acc_apply W A B C b p f)
  rw [normed_apply, divf_apply, acc_apply, LibKeepdims.broadcastTo_a1_ac_apply _ broadcasts_S5000x1_S5000x64 p e,
    maximumf_apply, broadcast_apply]
  show Ideal.div _ (max (Ideal.sqrt (shapeCast S5000x1 _ shapeCasts_S5000_S5000x1 (ix2 p (0 : Fin 1)))) _) = _
  rw [hss]
  rfl

end Cert.SignedConv.Body

end
-- ==== Proof.HostPrefix.lean ====
/-
  The two neighbourhood means the kernel's region reads are the ones the reference computes.

  Both programs compute, before anything else, the mean of the gathered rows x[col] over the edges into each node
  (self loops appended): the same slices, concatenations, gather, two scatter-adds, maximum with one and division, on
  the same argument arrays, in a different order of lines only.  The array the kernel's host operations leave for the
  first (second) row-tiled input of its region is therefore the reference's stage of the same name-independent tree
  of operations, applied to the launch contents of the node features and the edge list.  Nothing about gather or
  scatter is used: the two terms are the same term.
-/
import proofs.«130246_j24352464568464_2_alg».proof.Proof.Gen.KernelIdeal.Frame
import proofs.«130246_j24352464568464_2_alg».proof.Proof.Gen.ReferenceIdeal.Read
import Idealize.ShloMosaic.Lib.StableHlo.Run

noncomputable section

namespace Cert.SignedConv.Host

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 8192 in
set_option maxHeartbeats 4000000 in
/-- The mean over the positive edges, as the region finds it. -/
theorem mean_pos (c : Dev Cert.KernelIdeal.nD) :
    (Cert.KernelIdeal.Gen.V m c Cert.KernelIdeal.main_v29 : Cert.KernelIdeal.S100000x64.Idx → EReal)
      = Cert.ReferenceIdeal.Read.val_main_v25 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg2)) := by
  dsimp only [Cert.KernelIdeal.Gen.V, Cert.KernelIdeal.Gen.hostOps0]
  after_results_simp
  rfl

set_option maxRecDepth 8192 in
set_option maxHeartbeats 4000000 in
/-- The mean over the negative edges, as the region finds it. -/
theorem mean_neg (c : Dev Cert.KernelIdeal.nD) :
    (Cert.KernelIdeal.Gen.V m c Cert.KernelIdeal.main_v51 : Cert.KernelIdeal.S100000x64.Idx → EReal)
      = Cert.ReferenceIdeal.Read.val_main_v51 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg3)) := by
  dsimp only [Cert.KernelIdeal.Gen.V, Cert.KernelIdeal.Gen.hostOps0]
  after_results_simp
  rfl

end Cert.SignedConv.Host

end
-- ==== Proof.BlockReads.lean ====
/-
  Reading a grid point's blocks out of whole arrays.

  The grid has 20 points.  At point t the three row-tiled inputs and the output are at block row t (rows 5000·t …
  5000·t + 4999 of a [100000, 64] array), and the weight and the bias are at their one block, which is the whole
  array.  These are statements about index arithmetic only: they hold for any contents of the arrays.
-/
import proofs.«130246_j24352464568464_2_alg».proof.Proof.Gen.KernelIdeal.Frame
import Idealize.ShloMosaic.Lib.ValueIdx
import Idealize.ShloMosaic.Lib.Pipeline.Value

noncomputable section

namespace Cert.SignedConv.Reads

open Cert.KernelIdeal Cert.KernelIdeal.Gen Idealize.ShloMosaic Idealize.ShloMosaic.TcCoe Idealize.SL.Sem
  Idealize.ShloMosaic.ValueIdx

/-- The printed index maps over the grid: the three row-tiled inputs and the output are at block row `t`, the weight
    and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 20 := by
  have h : cfg0.N = 20 := N_0
  have := t.isLt
  omega

/-- Row `p` of point `t`'s block is row `5000·t + p` of the array. -/
abbrev arrRow (t : Fin cfg0.N) (p : Fin 5000) : Fin 100000 :=
  ⟨5000 * t.val + p.val, by have := point_lt t; have := p.isLt; omega⟩

/-- Where entry (p, k) of point `t`'s block of the first row-tiled input sits in its array. -/
theorem emb0_eq (t : Fin cfg0.N) (p : Fin 5000) (k : Fin 64) :
    ((cfg0.win 0).blk t).view.emb (ix2 p k) = (ix2 (arrRow t p) k : S100000x64.Idx) := by
  obtain ⟨e0, e1, -⟩ := idx_facts t
  refine funext fun a => Fin.ext ?_
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The same for the second row-tiled input. -/
theorem emb1_eq (t : Fin cfg0.N) (p : Fin 5000) (k : Fin 64) :
    ((cfg0.win 1).blk t).view.emb (ix2 p k) = (ix2 (arrRow t p) k : S100000x64.Idx) := by
  obtain ⟨-, -, e0, e1, -⟩ := idx_facts t
  refine funext fun a => Fin.ext ?_
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- The same for the third row-tiled input. -/
theorem emb2_eq (t : Fin cfg0.N) (p : Fin 5000) (k : Fin 64) :
    ((cfg0.win 2).blk t).view.emb (ix2 p k) = (ix2 (arrRow t p) k : S100000x64.Idx) := by
  obtain ⟨-, -, -, -, e0, e1, -⟩ := idx_facts t
  refine funext fun a => Fin.ext ?_
  match a with
  | ⟨0, _⟩ => show win0_2.index t (0 : Fin 2) * 5000 + 1 * p.val = 5000 * t.val + p.val; rw [e0]; omega
  | ⟨1, _⟩ => show win0_2.index t (1 : Fin 2) * 64 + 1 * k.val = k.val; rw [e1]; omega

/-- The weight's one block is the whole weight: an entry sits where it is. -/
theorem emb3_eq (t : Fin cfg0.N) (y : S192x64.Idx) : ((cfg0.win 3).blk t).view.emb y = y := by
  obtain ⟨-, -, -, -, -, -, e0, e1, -⟩ := idx_facts t
  refine funext fun a => Fin.ext ?_
  match a with
  | ⟨0, _⟩ => show win0_3.index t (0 : Fin 2) * 192 + 1 * (y 0).val = (y 0).val; rw [e0]; omega
  | ⟨1, _⟩ => show win0_3.index t (1 : Fin 2) * 64 + 1 * (y 1).val = (y 1).val; rw [e1]; omega

/-- The bias's one block is the whole bias. -/
theorem emb4_eq (t : Fin cfg0.N) (y : S64.Idx) : ((cfg0.win 4).blk t).view.emb y = y := by
  obtain ⟨-, -, -, -, -, -, -, -, e0, -⟩ := idx_facts t
  refine funext fun a => Fin.ext ?_
  match a with
  | ⟨0, _⟩ => show win0_4.index t (0 : Fin 1) * 64 + 1 * (y 0).val = (y 0).val; rw [e0]; omega

/-- Where entry (p, e) of point `t`'s output block sits in the result array. -/
theorem emb5_eq (t : Fin cfg0.N) (p : Fin 5000) (e : Fin 64) :
    ((cfg0.win 5).blk t).view.emb (ix2 p e) = (ix2 (arrRow t p) e : S100000x64.Idx) := by
  obtain ⟨-, -, -, -, -, -, -, -, -, e0, e1⟩ := idx_facts t
  refine funext fun a => Fin.ext ?_
  match a with
  | ⟨0, _⟩ => show win0_5.index t (0 : Fin 2) * 5000 + 1 * p.val = 5000 * t.val + p.val; rw [e0]; omega
  | ⟨1, _⟩ => show win0_5.index t (1 : Fin 2) * 64 + 1 * e.val = e.val; rw [e1]; omega

/-! ## Reading a block of any array

Each statement is for arbitrary contents `X` of the array: the window's view only moves the index. -/

/-- Point `t`'s block of an array staged by the first row-tiled window, read at (p, k): the array at row `5000·t + p`. -/
theorem read_blk0 (X : S100000x64.Idx → EReal) (t : Fin cfg0.N) (p : Fin 5000) (k : Fin 64) :
    ((cfg0.win 0).blk t).view.read (Elt Ideal) X (ix2 p k) = X (ix2 (arrRow t p) k) := by
  rw [View.read_apply, emb0_eq t p k]; rfl

theorem read_blk1 (X : S100000x64.Idx → EReal) (t : Fin cfg0.N) (p : Fin 5000) (k : Fin 64) :
    ((cfg0.win 1).blk t).view.read (Elt Ideal) X (ix2 p k) = X (ix2 (arrRow t p) k) := by
  rw [View.read_apply, emb1_eq t p k]; rfl

theorem read_blk2 (X : S100000x64.Idx → EReal) (t : Fin cfg0.N) (p : Fin 5000) (k : Fin 64) :
    ((cfg0.win 2).blk t).view.read (Elt Ideal) X (ix2 p k) = X (ix2 (arrRow t p) k) := by
  rw [View.read_apply, emb2_eq t p k]; rfl

/-- The weight's one block, read anywhere, is the weight there. -/
theorem read_blk3 (X : S192x64.Idx → EReal) (t : Fin cfg0.N) (y : S192x64.Idx) :
    ((cfg0.win 3).blk t).view.read (Elt Ideal) X y = X y := by
  rw [View.read_apply, emb3_eq t y]; rfl

/-- The bias's one block, read anywhere, is the bias there. -/
theorem read_blk4 (X : S64.Idx → EReal) (t : Fin cfg0.N) (y : S64.Idx) :
    ((cfg0.win 4).blk t).view.read (Elt Ideal) X y = X y := by
  rw [View.read_apply, emb4_eq t y]; rfl

/-- Point `t`'s block of the result array, read at (p, e): the array at row `5000·t + p`. -/
theorem read_blk5 (X : S100000x64.Idx → EReal) (t : Fin cfg0.N) (p : Fin 5000) (e : Fin 64) :
    ((cfg0.win 5).blk t).view.read (Elt Ideal) X (ix2 p e) = X (ix2 (arrRow t p) e) := by
  rw [View.read_apply, emb5_eq t p e]; rfl

/-- The output window's blocks lie inside the array, so what a point writes back is the whole of what the body left
    in its staging buffer: entry by entry the same function. -/
theorem cut5_apply (t : Fin cfg0.N) (X : S5000x64.Idx → EReal) (j : S5000x64.Idx) :
    (cfg0.win 5).cut (grid0.coords t) X j = X j := rfl

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v52).slice (win0_5.rect t)).set ↔ _
  rw [View.set_slice_whole, Rect.mem_set_unit]
  exact Iff.rfl

/-- Every index of the result array is in the block of the point its row over 5000 names. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

end Cert.SignedConv.Reads

end
-- ==== Proof.Blocks.lean ====
/-
  From the blocks the grid points write to the whole result array.

  Point t of the grid reads rows 5000·t … 5000·t + 4999 of the two neighbourhood means and of the node features, the
  whole weight and the whole bias, and writes the same rows of the result.  The body's store is the normalized linear
  layer of the blocks it read, and a row of that layer depends on the same row of its three row-tiled inputs only; so
  what point t writes is rows 5000·t … of the normalized layer of the WHOLE arrays.  The 20 blocks cover the array, so
  the array after the run is that one function of the argument arrays.
-/
import proofs.«130246_j24352464568464_2_alg».proof.Proof.Gen.KernelIdeal.Value
import proofs.«130246_j24352464568464_2_alg».proof.Proof.Payload
import proofs.«130246_j24352464568464_2_alg».proof.Proof.HostPrefix
import proofs.«130246_j24352464568464_2_alg».proof.Proof.BlockReads

noncomputable section

namespace Cert.SignedConv.Blocks

open Cert.KernelIdeal Cert.KernelIdeal.Gen Idealize.ShloMosaic Idealize.ShloMosaic.TcCoe Idealize.SL.Sem
  Idealize.ShloMosaic.ValueIdx Cert.SignedConv Cert.SignedConv.Reads
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The mean over the positive edges, of the launch contents of the node features and the edge list. -/
abbrev meanPos (c : Dev nD) : S100000x64.Idx → EReal :=
  Cert.ReferenceIdeal.Read.val_main_v25 (F := Ideal) (m ((c : Thread nD τ).loc main_arg0)) (m ((c : Thread nD τ).loc main_arg2))

/-- The mean over the negative edges. -/
abbrev meanNeg (c : Dev nD) : S100000x64.Idx → EReal :=
  Cert.ReferenceIdeal.Read.val_main_v51 (F := Ideal) (m ((c : Thread nD τ).loc main_arg1)) (m ((c : Thread nD τ).loc main_arg3))

/-- The node features, the weight and the bias as launched. -/
abbrev feats (c : Dev nD) : S100000x64.Idx → EReal := m ((c : Thread nD τ).loc main_arg0)
abbrev weight (c : Dev nD) : S192x64.Idx → EReal := m ((c : Thread nD τ).loc main_arg4)
abbrev bias (c : Dev nD) : S64.Idx → EReal := m ((c : Thread nD τ).loc main_arg5)

/-- THE RESULT ARRAY: the normalized linear layer of the two means, the node features, the weight and the bias. -/
def whole (c : Dev nD) : S100000x64.Idx → EReal :=
  normed (n := 100000) (meanPos m c) (meanNeg m c) (feats m c) (weight m c) (bias m c)

/-- The arrays the five input windows stage, as the region finds them. -/
theorem arr0 (c : Dev nD) : (V m c (Pipeline.arrRef spec0 0) : S100000x64.Idx → EReal) = meanPos m c := Host.mean_pos m c
theorem arr1 (c : Dev nD) : (V m c (Pipeline.arrRef spec0 1) : S100000x64.Idx → EReal) = meanNeg m c := Host.mean_neg m c
theorem arr2 (c : Dev nD) : (V m c (Pipeline.arrRef spec0 2) : S100000x64.Idx → EReal) = feats m c := V_main_arg0 m c
theorem arr3 (c : Dev nD) : (V m c (Pipeline.arrRef spec0 3) : S192x64.Idx → EReal) = weight m c := V_main_arg4 m c
theorem arr4 (c : Dev nD) : (V m c (Pipeline.arrRef spec0 4) : S64.Idx → EReal) = bias m c := V_main_arg5 m c

/-- Point `t`'s block of the first row-tiled input, read at (p, k): the mean over the positive edges at row
    `5000·t + p`. -/
theorem blk0_apply (c : Dev nD) (t : Fin cfg0.N) (p : Fin 5000) (k : Fin 64) :
    (iblk m c 0 t : S5000x64.Idx → EReal) (ix2 p k) = meanPos m c (ix2 (arrRow t p) k) := by
  unfold iblk
  rw [arr0 m c]
  exact read_blk0 (meanPos m c) t p k

/-- The second row-tiled input: the mean over the negative edges. -/
theorem blk1_apply (c : Dev nD) (t : Fin cfg0.N) (p : Fin 5000) (k : Fin 64) :
    (iblk m c 1 t : S5000x64.Idx → EReal) (ix2 p k) = meanNeg m c (ix2 (arrRow t p) k) := by
  unfold iblk
  rw [arr1 m c]
  exact read_blk1 (meanNeg m c) t p k

/-- The third row-tiled input: the node features as launched. -/
theorem blk2_apply (c : Dev nD) (t : Fin cfg0.N) (p : Fin 5000) (k : Fin 64) :
    (iblk m c 2 t : S5000x64.Idx → EReal) (ix2 p k) = feats m c (ix2 (arrRow t p) k) := by
  unfold iblk
  rw [arr2 m c]
  exact read_blk2 (feats m c) t p k

/-- The weight's one block is the whole weight as launched. -/
theorem blk3_eq (c : Dev nD) (t : Fin cfg0.N) : (iblk m c 3 t : S192x64.Idx → EReal) = weight m c := by
  funext y
  unfold iblk
  rw [arr3 m c]
  exact read_blk3 (weight m c) t y

/-- The bias's one block is the whole bias as launched. -/
theorem blk4_eq (c : Dev nD) (t : Fin cfg0.N) : (iblk m c 4 t : S64.Idx → EReal) = bias m c := by
  funext y
  unfold iblk
  rw [arr4 m c]
  exact read_blk4 (bias m c) t y

/-- The body's store at point `t`: the normalized linear layer of the blocks it read. -/
theorem stored_eq (c : Dev nD) (t : Fin cfg0.N) :
    out0_5 (F := Ideal) (iblk m c 0 t) (iblk m c 1 t) (iblk m c 2 t) (iblk m c 3 t) (iblk m c 4 t)
      = normed (n := 5000) (iblk m c 0 t) (iblk m c 1 t) (iblk m c 2 t) (iblk m c 3 t) (iblk m c 4 t) := by
  unfold out0_5
  rw [View.canon_unit_zero hz2]
  simp only [View.ld_unit_zero (S := S5000x64) hz2, View.ld_unit_zero (S := S192x64) hz2, View.ld_unit_zero (S := S64) hz1]
  exact Body.pay_is_normed (iblk m c 3 t) (iblk m c 0 t) (iblk m c 1 t) (iblk m c 2 t) (iblk m c 4 t)

/-- Entry (p, e) of what point `t` stores is entry (5000·t + p, e) of the result array `whole`. -/
theorem stored_apply (c : Dev nD) (t : Fin cfg0.N) (p : Fin 5000) (e : Fin 64) :
    normed (n := 5000) (iblk m c 0 t) (iblk m c 1 t) (iblk m c 2 t) (iblk m c 3 t) (iblk m c 4 t) (ix2 p e)
      = whole m c (ix2 (arrRow t p) e) := by
  unfold whole
  exact normed_rows (n := 5000) (n' := 100000) (iblk m c 0 t) (iblk m c 1 t) (iblk m c 2 t) (meanPos m c) (meanNeg m c) (feats m c)
    (iblk m c 3 t) (weight m c) (iblk m c 4 t) (bias m c) p (arrRow t p) (blk0_apply m c t p) (blk1_apply m c t p)
    (blk2_apply m c t p) (blk3_eq m c t) (blk4_eq m c t) e

/-- WHAT POINT `t` WRITES BACK is block `t` of the result array `whole`. -/
theorem flushed_eq (c : Dev nD) (t : Fin cfg0.N) :
    (dats m 0 c).flushed 5 t = ((cfg0.win 5).blk t).view.read (Elt Ideal) (whole m c) := by
  rw [Cert.KernelIdeal.Value.flushed5, stored_eq m c t]
  funext j
  obtain ⟨p, e, rfl⟩ : ∃ (p : Fin 5000) (e : Fin 64), j = (ix2 p e : S5000x64.Idx) := ⟨j 0, j 1, eq_ix2 j⟩
  rw [cut5_apply t _ (ix2 p e), read_blk5 (whole m c) t p e]
  exact stored_apply m c t p e

/-- THE ARRAY AFTER THE RUN is `whole`. -/
theorem final (c : Dev nD) : (dats m 0 c).arrAt 5 cfg0.N = whole m c :=
  (dats m 0 c).arrAt_eq_of_cover 5 (whole m c) (fun t _ => flushed_eq m c t) cover

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v52) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.KernelIdeal.Value.run_blocks m ρ)

end Cert.SignedConv.Blocks

end
-- ==== Proof.RefIsSpec.lean ====
/-
  The reference's result, entry by entry, is the normalized linear layer of the two neighbourhood means and the node
  features over all 100000 rows.

  The reference joins the three [100000, 64] matrices side by side into one [100000, 192] matrix and multiplies it
  by the whole [192, 64] weight: entry (r, e) is a sum over 192 columns.  Column 64·t + k of the joined matrix is column
  k of the t-th matrix, so the sum's three runs of 64 are the three block products, and the whole sum is their sum
  (`sum_three_blocks`: no finiteness is used).  The bias, the row's sum of squares, the square root, the comparison
  with the constant and the division are then the same operations entry by entry.
-/
import proofs.«130246_j24352464568464_2_alg».proof.Proof.Gen.ReferenceIdeal.Read
import proofs.«130246_j24352464568464_2_alg».proof.Proof.Spec

noncomputable section

open scoped BigOperators

namespace Cert.SignedConv.Ref

open Cert.ReferenceIdeal Cert.ReferenceIdeal.Gen Cert.ReferenceIdeal.Read Idealize.ShloMosaic Idealize.ShloMosaic.ValueIdx
  Cert.SignedConv

/-- Three [100000, 64] matrices joined side by side, read at column `o + k` with `o` the start of the first, second
    or third run of 64 columns: the first, second or third matrix at column `k`. -/
theorem cat_apply {α : Type} (A B C : S100000x64.Idx → α)
    (h : Shape.Concatenates (([⟨S100000x64, A⟩, ⟨S100000x64, B⟩, ⟨S100000x64, C⟩] : List ((s : Shape) × (s.Idx → α))).map (·.1)) S100000x192 1)
    (r : Fin 100000) (k : Fin 64) :
    concatenate S100000x192 1 [⟨S100000x64, A⟩, ⟨S100000x64, B⟩, ⟨S100000x64, C⟩] h (ix2 r (wrow 0 (by decide) k)) = A (ix2 r k)
    ∧ concatenate S100000x192 1 [⟨S100000x64, A⟩, ⟨S100000x64, B⟩, ⟨S100000x64, C⟩] h (ix2 r (wrow 64 (by decide) k)) = B (ix2 r k)
    ∧ concatenate S100000x192 1 [⟨S100000x64, A⟩, ⟨S100000x64, B⟩, ⟨S100000x64, C⟩] h (ix2 r (wrow 128 (by decide) k)) = C (ix2 r k) := by
  have hoff : ∀ b : Fin S100000x64.rank, b.cast (rfl : S100000x64.rank = S100000x192.rank) ≠ (1 : Fin S100000x192.rank) →
      ∀ kk : Fin 192, ((ix2 r k : S100000x64.Idx) b).val = ((ix2 r kk : S100000x192.Idx) (b.cast rfl)).val := fun b =>
    match b with
    | ⟨0, _⟩ => fun _ _ => rfl
    | ⟨1, _⟩ => fun hne _ => absurd (Fin.ext rfl) hne
  refine ⟨?_, ?_, ?_⟩
  · exact concatenate_apply_piece (1 : Fin S100000x192.rank) _ h _ 0 (by simp) S100000x64 A rfl rfl 0 (by rfl)
      (ix2 r k) (fun b hb => hoff b hb _) rfl
  · exact concatenate_apply_piece (1 : Fin S100000x192.rank) _ h _ 1 (by simp) S100000x64 B rfl rfl 64 (by rfl)
      (ix2 r k) (fun b hb => hoff b hb _) rfl
  · exact concatenate_apply_piece (1 : Fin S100000x192.rank) _ h _ 2 (by simp) S100000x64 C rfl rfl 128 (by rfl)
      (ix2 r k) (fun b hb => hoff b hb _) rfl

variable (x0 x1 : (⟨S100000x64, .f32⟩ : BufTy).Contents (Elt Ideal)) (x2 x3 : (⟨S2x1000000, .i32⟩ : BufTy).Contents (Elt Ideal))
  (x4 : (⟨S192x64, .f32⟩ : BufTy).Contents (Elt Ideal)) (x5 : (⟨S64, .f32⟩ : BufTy).Contents (Elt Ideal))

theorem lidx_eq (r : Fin 100000) (e : Fin 64) (kk : Fin 192) : lidx_main_v53 (ix2 r e) kk = ix2 r kk :=
  funext fun a => Fin.ext (by match a with | ⟨0, _⟩ => rfl | ⟨1, _⟩ => rfl)

theorem ridx_eq (r : Fin 100000) (e : Fin 64) (kk : Fin 192) : ridx_main_v53 (ix2 r e) kk = ix2 kk e :=
  funext fun a => Fin.ext (by match a with | ⟨0, _⟩ => rfl | ⟨1, _⟩ => rfl)

theorem bidx_eq (r : Fin 100000) (e : Fin 64) : idx_main_v54 (idx_main_v55 (ix2 r e)) = ix1 e :=
  funext fun a => Fin.ext (by match a with | ⟨0, _⟩ => rfl)

theorem colidx_eq (r : Fin 100000) (e : Fin 64) : idx_main_v59 (idx_main_v63 (ix2 r e)) = ix1 r :=
  funext fun a => Fin.ext (by match a with | ⟨0, _⟩ => rfl)

theorem rowidx_eq (r : Fin 100000) (f : Fin 64) : idx_main_v58 (ix1 r) f = ix2 r f :=
  funext fun a => Fin.ext (by match a with | ⟨0, _⟩ => rfl | ⟨1, _⟩ => rfl)

/-- The reference's linear layer at (r, e): the 192-long sum split into the three block products. -/
theorem ref_lin (r : Fin 100000) (e : Fin 64) :
    val_main_v56 (F := Ideal) x0 x1 x2 x3 x4 x5 (ix2 r e)
      = lin (val_main_v25 (F := Ideal) x0 x2) (val_main_v51 (F := Ideal) x1 x3) x0 x4 x5 r e := by
  rw [val_main_v56_apply, val_main_v53_apply, val_main_v55_apply, val_main_v54_apply, bidx_eq, sum_three_blocks,
    Ideal.addf_def]
  unfold lin
  have hc := fun k : Fin 64 => cat_apply (val_main_v25 (F := Ideal) x0 x2) (val_main_v51 (F := Ideal) x1 x3) x0
    concatenates_S100000x64_S100000x64_S100000x64_S100000x192_d1 r k
  refine congrArg₂ (· + ·) (congrArg₂ (· + ·) (congrArg₂ (· + ·)
    (Finset.sum_congr rfl fun k _ => ?_) (Finset.sum_congr rfl fun k _ => ?_)) (Finset.sum_congr rfl fun k _ => ?_)) rfl
  · rw [lidx_eq, ridx_eq]; exact congrArg (· * _) (hc k).1
  · rw [lidx_eq, ridx_eq]; exact congrArg (· * _) (hc k).2.1
  · rw [lidx_eq, ridx_eq]; exact congrArg (· * _) (hc k).2.2

/-- The reference's sum of squares of row `r` (the initial value of the host's sum is the zero word). -/
theorem ref_sumSq (r : Fin 100000) :
    val_main_v58 (F := Ideal) x0 x1 x2 x3 x4 x5 (ix1 r)
      = sumSq (val_main_v25 (F := Ideal) x0 x2) (val_main_v51 (F := Ideal) x1 x3) x0 x4 x5 r := by
  rw [val_main_v58_apply, val_main_cst_10_apply, Ideal.ofBits_def, Ideal.ofBits_zero_f32, zero_add]
  refine Finset.sum_congr rfl fun f _ => ?_
  rw [rowidx_eq, val_main_v57_apply, Ideal.mulf_def, ref_lin]

/-- THE REFERENCE'S RESULT: `normed` of the two neighbourhood means, the node features, the weight and the bias. -/
theorem ref_is_normed :
    val_main_v64 (F := Ideal) x0 x1 x2 x3 x4 x5
      = normed (val_main_v25 (F := Ideal) x0 x2) (val_main_v51 (F := Ideal) x1 x3) x0 x4 x5 := by
  funext j
  obtain ⟨r, e, rfl⟩ : ∃ (r : Fin 100000) (e : Fin 64), j = ix2 r e := ⟨j 0, j 1, eq_ix2 j⟩
  rw [normed_apply, val_main_v64_apply, val_main_v63_apply, val_main_v62_apply, val_main_v61_apply, val_main_cst_11_apply,
    val_main_v60_apply, val_main_v59_apply, colidx_eq, ref_sumSq, ref_lin, Ideal.hostDivf_def, Ideal.maximumf_def,
    Ideal.hostUnary_sqrt_def, Ideal.ofBits_def]
  rfl

end Cert.SignedConv.Ref

end
-- ==== Proof.lean ====
/-
  A signed graph convolution: two neighbourhood means, a linear layer, and a row-wise L2 normalization.

  Both programs first compute, on the host and with the same operations, the mean of the features of each node's
  positive neighbours and the mean of another feature matrix over its negative neighbours (self loops appended).
  The reference then joins the two means and the node features side by side into a [100000, 192] matrix, multiplies
  by the [192, 64] weight, adds the bias, and divides every row by the larger of its Euclidean length and a small
  constant.  The kernel does the same on blocks of 5000 rows, but multiplies the three [5000, 64] blocks by the three
  [64, 64] row blocks of the weight separately and adds the three products.

  On the extended reals the two agree because a sum over 192 indices is the sum of its three runs of 64 (a law of
  every commutative monoid: no finiteness of the inputs is needed), every other operation is the same function
  applied entry by entry (a change of float format is the identity, the two square roots, maxima and quotients are
  one function each, and the small constant is the same word on both sides), a row of the result depends on the same
  row of the inputs only, and the 20 blocks of rows cover the array.

  The modules: Spec (the mathematics: `lin`, `normed`, the three-runs law, rows are independent), Payload (the
  kernel body's store is `normed` of its blocks), HostPrefix (the means the kernel's region reads are the reference's),
  Blocks (the blocks written by the grid points make up `whole`), RefIsSpec (the reference's result is `normed` of the
  whole arrays).  The frames are the generated ones; the idealization rewrote nothing.
-/
import proofs.«130246_j24352464568464_2_alg».proof.Defs
import proofs.«130246_j24352464568464_2_alg».proof.Proof.Gen.Kernel
import proofs.«130246_j24352464568464_2_alg».proof.Proof.Gen.Kernel.Frame
import proofs.«130246_j24352464568464_2_alg».proof.Proof.Gen.KernelIdeal
import proofs.«130246_j24352464568464_2_alg».proof.Proof.Gen.KernelIdeal.Frame
import proofs.«130246_j24352464568464_2_alg».proof.Proof.Gen.KernelIdeal.Value
import proofs.«130246_j24352464568464_2_alg».proof.Proof.Gen.ReferenceIdeal
import proofs.«130246_j24352464568464_2_alg».proof.Proof.Gen.ReferenceIdeal.Run
import proofs.«130246_j24352464568464_2_alg».proof.Proof.Gen.ReferenceIdeal.Read
import proofs.«130246_j24352464568464_2_alg».proof.Proof.Gen.Pre_finite_inputs
import proofs.«130246_j24352464568464_2_alg».proof.Proof.Blocks
import proofs.«130246_j24352464568464_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the six arguments both programs end with the result array at the normalized
    linear layer of the two neighbourhood means, the node features, the weight and the bias. -/
theorem algebraic : Cert.algebraic_KernelIdeal_ReferenceIdeal := by
  intro m ρ m' ρ' _ hagree
  refine ⟨fun c => Cert.SignedConv.Blocks.whole m c, Cert.SignedConv.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v64_eq, Cert.SignedConv.Ref.ref_is_normed, h0, h1, h2, h3, h4, h5]
  unfold Cert.SignedConv.Blocks.whole
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
